-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  shapeCasts_S4096_S1x4096 : S4096.ShapeCasts S1x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S8x2048x4096 : S16384x4096.ShapeCasts S8x2048x4096
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x4096.size a
  hwx0_3 : ∀ i : grid0.Coords, EltTy.bits .f32 = 32 ∨ (Rect.block (s := S16384x4096) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The function both programs compute, on the extended reals, and the two laws that join their two spellings of it.

  With x : [8, 2048, 4096], w : [4096, 4096] and b : [4096], entry (i, s, o) of the result is
      (∑ κ < 4096, x (i, s, κ) · sign (w (o, κ))) + b o.
  One program forms the sum over κ in four consecutive stretches of 1024 terms, adding each stretch to a running total that
  starts at zero: `upto` is the running total after n stretches, `upto_succ` its step, `upto_four` the whole sum — only
  associativity of + on the extended reals, so nothing is asked of the entries. The other program spells the sign as
  w + (sign w − w); that is sign w exactly when w is a real number (`sign_fix`): at an infinite w the difference is
  the opposite infinity and the sum is not the sign.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The result, index by index, from the three argument arrays. -/
def out (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun i => (∑ κ : Fin 4096, x (ix3 (i 0) (i 1) κ) * Ideal.sign (w (ix2 (i 2) κ))) + b (ix1 (i 2))

/-- The same product laid out as a matrix: rows r < 16384 of `A` against rows c < 4096 of `S`, plus the one row `B`. -/
def mat (A : (⟨2, ![16384, 4096]⟩ : Shape).Idx → EReal) (S : (⟨2, ![4096, 4096]⟩ : Shape).Idx → EReal)
    (B : (⟨2, ![1, 4096]⟩ : Shape).Idx → EReal) : (⟨2, ![16384, 4096]⟩ : Shape).Idx → EReal :=
  fun j => (∑ κ : Fin 4096, A (ix2 (j 0) κ) * S (ix2 (j 1) κ)) + B (ix2 (0 : Fin 1) (j 1))

/-- Term κ of a sum of 4096 terms, zero past the end. -/
def term (f : Fin 4096 → EReal) (κ : ℕ) : EReal := if h : κ < 4096 then f ⟨κ, h⟩ else 0

theorem term_of_lt (f : Fin 4096 → EReal) (κ : ℕ) (h : κ < 4096) : term f κ = f ⟨κ, h⟩ := dif_pos h

/-- The running total after `n` stretches of 1024 terms. -/
def upto (f : Fin 4096 → EReal) (n : ℕ) : EReal := ∑ κ ∈ Finset.range (1024 * n), term f κ

theorem upto_zero (f : Fin 4096 → EReal) : upto f 0 = 0 := by
  unfold upto; rw [Nat.mul_zero, Finset.range_zero, Finset.sum_empty]

/-- One more stretch: the total so far plus the next 1024 terms. -/
theorem upto_succ (f : Fin 4096 → EReal) (n : ℕ) :
    upto f (n + 1) = upto f n + ∑ κ : Fin 1024, term f (1024 * n + κ.val) := by
  unfold upto
  rw [show 1024 * (n + 1) = 1024 * n + 1024 from by ring, Finset.sum_range_add]
  exact congrArg (_ + ·) (Finset.sum_range fun κ => term f (1024 * n + κ))

/-- Four stretches are the whole sum. -/
theorem upto_four (f : Fin 4096 → EReal) : upto f 4 = ∑ κ : Fin 4096, f κ := by
  unfold upto
  rw [show 1024 * 4 = 4096 from rfl, Finset.sum_range]
  exact Finset.sum_congr rfl fun κ _ => term_of_lt f κ.val κ.isLt

/-- For a real number `w`: w + (sign w − w) is sign w. -/
theorem sign_fix (w : EReal) (hw : ∃ r : ℝ, w = (r : EReal)) : w + (Ideal.sign w - w) = Ideal.sign w := by
  obtain ⟨r, rfl⟩ := hw
  rw [Ideal.sign_coe, ← EReal.coe_sub, ← EReal.coe_add]
  exact congrArg _ (by ring)

end Cert.Spec

end
-- ==== Proof.Pieces.lean ====
/-
  What one grid point's body leaves behind, as pure functions of what it read.

  The body at a grid point (i, j, k) reads a 1024×1024 block `x0` of the left matrix, a 2048×1024 block `x1` of the right
  matrix and a 1×2048 block `x2` of the bias row, and keeps a 1024×2048 accumulator between points. With
  `step x0 x1 acc` = acc + x0 · x1ᵀ (the product contracts the second axis of both blocks):
    · at k = 0 the accumulator is first set to zero, so the point leaves `step x0 x1 0`;
    · at k = 1, 2 it leaves `step x0 x1 acc` of the accumulator `acc` the point before left;
    · at k = 3 it leaves the same in the accumulator, and writes `step x0 x1 acc` plus the bias row (broadcast down the
      rows) to the output block.
  Each is read off the body's stores: every store covers its whole buffer, so the buffer ends holding the last store's
  value, and a load that follows a store reads that store's value.
-/
import proofs.«120491_j62818191671354_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The accumulator after a point with k = 1 or 2: the accumulator before it plus the blocks' product. -/
theorem sout_B (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : ¬cond0_1 i) (x0 : Vec F S1024x1024 .f32) (x1 : Vec F S2048x1024 .bf16) (x2 : Vec F S1x2048 .f32) (xs0 : Vec F S1024x2048 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz,
    View.ld_unit_zero (S := S2048x1024) hz, View.ld_unit_zero (S := S1024x2048) hz]

/-- The accumulator after a point with k = 3: the same step. -/
theorem sout_C (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x1024 .f32) (x1 : Vec F S2048x1024 .bf16) (x2 : Vec F S1x2048 .f32) (xs0 : Vec F S1024x2048 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz,
    View.ld_unit_zero (S := S2048x1024) hz, View.ld_unit_zero (S := S1024x2048) hz]

/-- The output block a point with k = 3 writes: the accumulator it has just stored, read back, plus the bias row. -/
theorem out_C (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x1024 .f32) (x1 : Vec F S2048x1024 .bf16) (x2 : Vec F S1x2048 .f32) (xs0 : Vec F S1024x2048 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x2048) _ hz]
  simp only [View.readAt_eq_ld, h3.read_unread, h4.read_unread, h5.read_unread, h7.read_unread,
    View.ld_unit_zero (S := S1024x1024) hz, View.ld_unit_zero (S := S2048x1024) hz, View.ld_unit_zero (S := S1024x2048) hz,
    View.ld_unit_zero (S := S1x2048) hz]

/-- The accumulator after a point with k = 0: zeroed, read back, then the step. -/
theorem sout_A (c : Dev nD) (i : grid0.Coords) (a3 : Memref sig .tc .vmem S1024x1024 .f32) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : cond0_0 i) (hc1 : ¬cond0_1 i) (x0 : Vec F S1024x1024 .f32) (x1 : Vec F S2048x1024 .bf16) (x2 : Vec F S1x2048 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x1024) hz,
    View.ld_unit_zero (S := S2048x1024) hz]

end Cert.KernelIdeal.Acc

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.Payload.lean ====
/-
  One grid point's arithmetic, entry by entry, on the extended reals.

  With blocks x0 : [1024, 1024] of the left matrix, x1 : [2048, 1024] of the right matrix, x2 : [1, 2048] of the bias row and an
  accumulator acc : [1024, 2048], at entry (p, q):
    · the reset value is 0;
    · the step is acc (p, q) + ∑ κ < 1024, x0 (p, κ) · x1 (q, κ): the product contracts the second axis of both blocks, the
      narrowing of x0 to the shorter float format is the identity on the extended reals, and the product starts from zero;
    · the output is the stepped accumulator at (p, q) plus x2 (0, q), the bias row repeated down the rows.
-/
import proofs.«120491_j62818191671354_2_alg».proof.Proof.Gen.KernelIdeal.Skeleton
import proofs.«120491_j62818191671354_2_alg».proof.Proof.LibMatmulZero
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-- The value the accumulator is reset to is zero everywhere. -/
theorem pay1_apply (j : S1024x2048.Idx) : k0_pay1 (F := Ideal) j = 0 := by
  unfold k0_pay1
  simp only [shapeCast_self]
  exact Ideal.ofBits_zero_f32

/-- The product's left operand index at output (j₀, j₁) and contraction position κ is (j₀, κ), -/
theorem lhs0 (j : S1024x2048.Idx) (r : dot_S1024x1024_S2048x1024_S1024x2048_1_1_0_0_n_n.contr.Idx) : (dot_S1024x1024_S2048x1024_S1024x2048_1_1_0_0_n_n.lhsIdx j r 0).val = (j 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs1 (j : S1024x2048.Idx) (r : dot_S1024x1024_S2048x1024_S1024x2048_1_1_0_0_n_n.contr.Idx) : (dot_S1024x1024_S2048x1024_S1024x2048_1_1_0_0_n_n.lhsIdx j r 1).val = (r ⟨0, by decide⟩).val :=
  dot_S1024x1024_S2048x1024_S1024x2048_1_1_0_0_n_n.lhsIdx_val_of_single rfl j r
/-- and its right operand index is (j₁, κ): both operands are contracted along their second axis. -/
theorem rhs0 (j : S1024x2048.Idx) (r : dot_S1024x1024_S2048x1024_S1024x2048_1_1_0_0_n_n.contr.Idx) : (dot_S1024x1024_S2048x1024_S1024x2048_1_1_0_0_n_n.rhsIdx j r 0).val = (j 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs1 (j : S1024x2048.Idx) (r : dot_S1024x1024_S2048x1024_S1024x2048_1_1_0_0_n_n.contr.Idx) : (dot_S1024x1024_S2048x1024_S1024x2048_1_1_0_0_n_n.rhsIdx j r 1).val = (r ⟨0, by decide⟩).val :=
  dot_S1024x1024_S2048x1024_S1024x2048_1_1_0_0_n_n.rhsIdx_val_of_single rfl j r

theorem lhs_at (p : Fin 1024) (q : Fin 2048) (k : Fin 1024) (a : Fin S1024x1024.rank) :
    (dot_S1024x1024_S2048x1024_S1024x2048_1_1_0_0_n_n.lhsIdx (ix2 p q) ((contrEquiv1 dot_S1024x1024_S2048x1024_S1024x2048_1_1_0_0_n_n 1024 rfl rfl).symm k) a).val = ((ix2 p k : S1024x1024.Idx) a).val := by
  match a with
  | ⟨0, _⟩ => exact lhs0 _ _
  | ⟨1, _⟩ => exact (lhs1 _ _).trans (contrEquiv1_symm_val dot_S1024x1024_S2048x1024_S1024x2048_1_1_0_0_n_n 1024 rfl rfl k)

theorem rhs_at (p : Fin 1024) (q : Fin 2048) (k : Fin 1024) (a : Fin S2048x1024.rank) :
    (dot_S1024x1024_S2048x1024_S1024x2048_1_1_0_0_n_n.rhsIdx (ix2 p q) ((contrEquiv1 dot_S1024x1024_S2048x1024_S1024x2048_1_1_0_0_n_n 1024 rfl rfl).symm k) a).val = ((ix2 q k : S2048x1024.Idx) a).val := by
  match a with
  | ⟨0, _⟩ => exact rhs0 _ _
  | ⟨1, _⟩ => exact (rhs1 _ _).trans (contrEquiv1_symm_val dot_S1024x1024_S2048x1024_S1024x2048_1_1_0_0_n_n 1024 rfl rfl k)

/-- The step at entry (p, q): the accumulator there plus the 1024 products along the shared axis. -/
theorem pay2_apply (x0 : Vec Ideal S1024x1024 .f32) (x1 : Vec Ideal S2048x1024 .bf16) (acc : Vec Ideal S1024x2048 .f32)
    (p : Fin 1024) (q : Fin 2048) :
    k0_pay2 x0 x1 acc (ix2 p q) = acc (ix2 p q) + ∑ κ : Fin 1024, x0 (ix2 p κ) * x1 (ix2 q κ) := by
  unfold k0_pay2
  simp only [shapeCast_self]
  exact congrArg (acc (ix2 p q) + ·)
    (Cert.LibMatmulZero.matmul_zero_apply dot_S1024x1024_S2048x1024_S1024x2048_1_1_0_0_n_n 1024 rfl rfl (truncf .bf16 x0 bitsLt_bf16_f32) x1 (ix2 p q)
      (fun κ => ix2 p κ) (fun κ => ix2 q κ) (lhs_at p q) (rhs_at p q))

/-- The output at entry (p, q): the accumulator there plus the bias row at q. -/
theorem pay3_apply (acc : Vec Ideal S1024x2048 .f32) (x2 : Vec Ideal S1x2048 .f32) (p : Fin 1024) (q : Fin 2048) :
    k0_pay3 acc x2 (ix2 p q) = acc (ix2 p q) + x2 (ix2 (0 : Fin 1) q) := by
  unfold k0_pay3
  simp only [shapeCast_self]
  exact congrArg (acc (ix2 p q) + ·) (broadcastTo_1b_ab_apply x2 broadcasts_S1x2048_S1024x2048 p q)

end Cert.KernelIdeal.Acc

end
-- ==== Proof.Blocks.lean ====
/-
  Where a grid point's blocks sit in their arrays.

  The grid has 16 × 2 × 4 points; point number t is (i, j, k) with i = t / 8, j = (t / 4) mod 2, k = t mod 4. At that point the
  body is handed rows 1024·i … of the left matrix and columns 1024·k … of them; rows 2048·j … of the right matrix and the same
  columns; columns 2048·j … of the bias row; and writes rows 1024·i …, columns 2048·j … of the output. So entry (p, κ) of the
  left block is entry (1024·i + p, 1024·k + κ) of the left matrix, and likewise for the others.
-/
import proofs.«120491_j62818191671354_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The block index of each window at point t, on each axis. -/
theorem idx_facts : ∀ t : Fin cfg0.N,
    win0_0.index t (0 : Fin 2) = t.val / 8 ∧ win0_0.index t (1 : Fin 2) = t.val % 4
    ∧ win0_1.index t (0 : Fin 2) = (t.val / 4) % 2 ∧ win0_1.index t (1 : Fin 2) = t.val % 4
    ∧ win0_2.index t (0 : Fin 2) = 0 ∧ win0_2.index t (1 : Fin 2) = (t.val / 4) % 2
    ∧ win0_3.index t (0 : Fin 2) = t.val / 8 ∧ win0_3.index t (1 : Fin 2) = (t.val / 4) % 2 :=
  (by decide +kernel : ∀ t : Fin grid0.N, _)

theorem tlt (t : Fin cfg0.N) : t.val < 128 := lt_of_lt_of_eq t.isLt (show cfg0.N = 128 from N_0)

/-- Row p of the point's left block, as a row of the left matrix. -/
def rowOf (t : Fin cfg0.N) (p : Fin 1024) : Fin 16384 :=
  ⟨1024 * (t.val / 8) + p.val, by have := tlt t; have := p.isLt; omega⟩
/-- Row q of the point's right block (column q of its output block), as a row of the right matrix. -/
def colOf (t : Fin cfg0.N) (q : Fin 2048) : Fin 4096 :=
  ⟨2048 * ((t.val / 4) % 2) + q.val, by have := q.isLt; omega⟩
/-- Position κ of the point's stretch of the shared axis, as a position of the whole axis. -/
def kOf (t : Fin cfg0.N) (κ : Fin 1024) : Fin 4096 :=
  ⟨1024 * (t.val % 4) + κ.val, by have := κ.isLt; omega⟩

/-- The arrays the region reads, as it finds them. -/
abbrev A0 (c : Dev nD) : S16384x4096.Idx → EReal := V m c main_v0
abbrev A1 (c : Dev nD) : S4096x4096.Idx → EReal := V m c main_v3
abbrev A2 (c : Dev nD) : S1x4096.Idx → EReal := V m c main_v1

theorem iblk0_apply (c : Dev nD) (t : Fin cfg0.N) (p κ : Fin 1024) :
    (iblk m c 0 t : Vec Ideal S1024x1024 .f32) (ix2 p κ) = A0 m c (ix2 (rowOf t p) (kOf t κ)) := by
  obtain ⟨e0, e1, -⟩ := idx_facts t
  unfold iblk
  rw [View.read_apply]
  show V m c main_v0 _ = V m c main_v0 _
  congr 1
  funext a; apply Fin.ext
  match a with
  | ⟨0, _⟩ => show win0_0.index t (0 : Fin 2) * 1024 + 1 * p.val = 1024 * (t.val / 8) + p.val; rw [e0]; omega
  | ⟨1, _⟩ => show win0_0.index t (1 : Fin 2) * 1024 + 1 * κ.val = 1024 * (t.val % 4) + κ.val; rw [e1]; omega

theorem iblk1_apply (c : Dev nD) (t : Fin cfg0.N) (q : Fin 2048) (κ : Fin 1024) :
    (iblk m c 1 t : Vec Ideal S2048x1024 .bf16) (ix2 q κ) = A1 m c (ix2 (colOf t q) (kOf t κ)) := by
  obtain ⟨-, -, e2, e3, -⟩ := idx_facts t
  unfold iblk
  rw [View.read_apply]
  show V m c main_v3 _ = V m c main_v3 _
  congr 1
  funext a; apply Fin.ext
  match a with
  | ⟨0, _⟩ => show win0_1.index t (0 : Fin 2) * 2048 + 1 * q.val = 2048 * ((t.val / 4) % 2) + q.val; rw [e2]; omega
  | ⟨1, _⟩ => show win0_1.index t (1 : Fin 2) * 1024 + 1 * κ.val = 1024 * (t.val % 4) + κ.val; rw [e3]; omega

theorem iblk2_apply (c : Dev nD) (t : Fin cfg0.N) (q : Fin 2048) :
    (iblk m c 2 t : Vec Ideal S1x2048 .f32) (ix2 (0 : Fin 1) q) = A2 m c (ix2 (0 : Fin 1) (colOf t q)) := by
  obtain ⟨-, -, -, -, e4, e5, -⟩ := idx_facts t
  unfold iblk
  rw [View.read_apply]
  show V m c main_v1 _ = V m c main_v1 _
  congr 1
  funext a; apply Fin.ext
  match a with
  | ⟨0, _⟩ => show win0_2.index t (0 : Fin 2) * 1 + 1 * 0 = 0; rw [e4]
  | ⟨1, _⟩ => show win0_2.index t (1 : Fin 2) * 2048 + 1 * q.val = 2048 * ((t.val / 4) % 2) + q.val; rw [e5]; omega

/-- Entry y of the point's output block is entry (row, column) of the output matrix. -/
theorem emb3 (t : Fin cfg0.N) (y : S1024x2048.Idx) :
    ((cfg0.win 3).blk t).view.emb y = (ix2 (rowOf t (y 0)) (colOf t (y 1)) : S16384x4096.Idx) := by
  obtain ⟨-, -, -, -, -, -, e6, e7⟩ := idx_facts t
  funext a; apply Fin.ext
  match a with
  | ⟨0, _⟩ => show win0_3.index t (0 : Fin 2) * 1024 + 1 * (y 0).val = 1024 * (t.val / 8) + (y 0).val; rw [e6]; omega
  | ⟨1, _⟩ => show win0_3.index t (1 : Fin 2) * 2048 + 1 * (y 1).val = 2048 * ((t.val / 4) % 2) + (y 1).val; rw [e7]; omega

end Cert.KernelIdeal.Acc

end
-- ==== Proof.Accum.lean ====
/-
  The accumulator across the grid, and what is written out.

  Fix an output block (i, j) and an entry (p, q) of it, and write r = 1024·i + p, s = 2048·j + q. The four points (i, j, k),
  k = 0 … 3, are consecutive, and the accumulator they share holds at (p, q), after the point with index k,
      ∑ κ < 1024·(k + 1), A (r, κ) · S (s, κ)
  (`acc_eq`, by induction on the point's number: at k = 0 the accumulator restarts from zero, at k > 0 the point before it is
  the same block's point k − 1 and one more stretch of 1024 terms is added). At k = 3 that is the whole sum over κ < 4096,
  and the point writes it plus the bias B (0, s) to entry (p, q) of its output block (`out_eq`).
-/
import proofs.«120491_j62818191671354_2_alg».proof.Proof.Spec
import proofs.«120491_j62818191671354_2_alg».proof.Proof.Pieces
import proofs.«120491_j62818191671354_2_alg».proof.Proof.Payload
import proofs.«120491_j62818191671354_2_alg».proof.Proof.Blocks

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The products along the shared axis for row r of the left matrix against row s of the right one. -/
def prod (c : Dev nD) (r : Fin 16384) (s : Fin 4096) : Fin 4096 → EReal :=
  fun κ => A0 m c (ix2 r κ) * A1 m c (ix2 s κ)

/-- One point's step: if the accumulator holds the first k stretches at (p, q), the step leaves the first k + 1. -/
theorem step_eq (c : Dev nD) (t : Fin cfg0.N) (p : Fin 1024) (q : Fin 2048) (acc : Vec Ideal S1024x2048 .f32)
    (k : ℕ) (hk : t.val % 4 = k) (hacc : acc (ix2 p q) = Spec.upto (prod m c (rowOf t p) (colOf t q)) k) :
    k0_pay2 (iblk m c 0 t) (iblk m c 1 t) acc (ix2 p q) = Spec.upto (prod m c (rowOf t p) (colOf t q)) (k + 1) := by
  subst hk
  refine (pay2_apply (iblk m c 0 t) (iblk m c 1 t) acc p q).trans ?_
  rw [hacc, Spec.upto_succ]
  refine congrArg (_ + ·) (Finset.sum_congr rfl fun κ _ => ?_)
  refine Eq.trans ?_ (Spec.term_of_lt (prod m c (rowOf t p) (colOf t q)) (1024 * (t.val % 4) + κ.val) (kOf t κ).isLt).symm
  exact congrArg₂ (· * ·) (iblk0_apply m c t p κ) (iblk1_apply m c t q κ)

/-- The accumulator after point number n, at (p, q): the stretches up to and including the point's own. -/
theorem acc_eq (c : Dev nD) (n : ℕ) : ∀ (h : n < cfg0.N) (p : Fin 1024) (q : Fin 2048) (k : ℕ), n % 4 = k →
    (outsAt0 m c n h).2 (ix2 p q) = Spec.upto (prod m c (rowOf ⟨n, h⟩ p) (colOf ⟨n, h⟩ q)) (k + 1) := by
  induction n with
  | zero =>
    intro h p q k hk
    have h0 : (⟨0, h⟩ : Fin cfg0.N).val % 4 = 0 := rfl
    have h1 : ¬(⟨0, h⟩ : Fin cfg0.N).val % 4 = 3 := (by decide : ¬(0 % 4 = 3))
    rw [show outsAt0 m c 0 h = _ from outsAt0_A m c ⟨0, h⟩ h0 h1]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩)) (ix2 p q)).trans ?_
    have hk0 : k = 0 := hk.symm
    exact step_eq m c ⟨0, h⟩ p q _ k hk (by rw [hk0]; exact (pay1_apply _).trans (Spec.upto_zero _).symm)
  | succ n ih =>
    intro h p q k hk
    have hN : n + 1 < 128 := lt_of_lt_of_eq h (show cfg0.N = 128 from N_0)
    by_cases h0 : (n + 1) % 4 = 0
    · have h1 : ¬(n + 1) % 4 = 3 := by omega
      rw [show outsAt0 m c (n + 1) h = _ from outsAt0_A m c ⟨n + 1, h⟩ h0 h1]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)) (ix2 p q)).trans ?_
      have hk0 : k = 0 := by omega
      exact step_eq m c ⟨n + 1, h⟩ p q _ k hk (by rw [hk0]; exact (pay1_apply _).trans (Spec.upto_zero _).symm)
    · have ih' := ih (Nat.lt_of_succ_lt h) p q (n % 4) rfl
      have er : rowOf ⟨n, Nat.lt_of_succ_lt h⟩ p = rowOf ⟨n + 1, h⟩ p :=
        Fin.ext (by show 1024 * (n / 8) + p.val = 1024 * ((n + 1) / 8) + p.val; omega)
      have ec : colOf ⟨n, Nat.lt_of_succ_lt h⟩ q = colOf ⟨n + 1, h⟩ q :=
        Fin.ext (by show 2048 * ((n / 4) % 2) + q.val = 2048 * (((n + 1) / 4) % 2) + q.val; omega)
      have ek : n % 4 + 1 = k := by omega
      rw [er, ec, ek] at ih'
      by_cases h1 : (n + 1) % 4 = 3
      · rw [show outsAt0 m c (n + 1) h = _ from outsAt0_C m c ⟨n + 1, h⟩ h0 h1]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2) (ix2 p q)).trans ?_
        exact step_eq m c ⟨n + 1, h⟩ p q _ k hk ih'
      · rw [show outsAt0 m c (n + 1) h = _ from outsAt0_B m c ⟨n + 1, h⟩ h0 h1]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2) (ix2 p q)).trans ?_
        exact step_eq m c ⟨n + 1, h⟩ p q _ k hk ih'

/-- What a point with k = 3 writes to entry (p, q) of its output block: the whole sum plus the bias. -/
theorem out_eq (c : Dev nD) (n : ℕ) (h : n < cfg0.N) (h3 : n % 4 = 3) (p : Fin 1024) (q : Fin 2048) :
    (outsAt0 m c n h).1 (ix2 p q) = Spec.mat (A0 m c) (A1 m c) (A2 m c) (ix2 (rowOf ⟨n, h⟩ p) (colOf ⟨n, h⟩ q)) := by
  cases n with
  | zero => exact absurd h3 (by decide : ¬(0 % 4 = 3))
  | succ n =>
    have hN : n + 1 < 128 := lt_of_lt_of_eq h (show cfg0.N = 128 from N_0)
    have h0 : ¬(n + 1) % 4 = 0 := by omega
    have ih := acc_eq m c n (Nat.lt_of_succ_lt h) p q (n % 4) rfl
    have er : rowOf ⟨n, Nat.lt_of_succ_lt h⟩ p = rowOf ⟨n + 1, h⟩ p :=
      Fin.ext (by show 1024 * (n / 8) + p.val = 1024 * ((n + 1) / 8) + p.val; omega)
    have ec : colOf ⟨n, Nat.lt_of_succ_lt h⟩ q = colOf ⟨n + 1, h⟩ q :=
      Fin.ext (by show 2048 * ((n / 4) % 2) + q.val = 2048 * (((n + 1) / 4) % 2) + q.val; omega)
    have ek : n % 4 + 1 = 3 := by omega
    rw [er, ec, ek] at ih
    rw [show outsAt0 m c (n + 1) h = _ from outsAt0_C m c ⟨n + 1, h⟩ h0 h3]
    dsimp only
    refine (congrFun (out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h3) (iblk m c 0 ⟨n + 1, h⟩) (iblk m c 1 ⟨n + 1, h⟩) (iblk m c 2 ⟨n + 1, h⟩) (outsAt0 m c n (Nat.lt_of_succ_lt h)).2) (ix2 p q)).trans ?_
    refine (pay3_apply _ (iblk m c 2 ⟨n + 1, h⟩) p q).trans ?_
    refine (congrArg₂ (· + ·) (step_eq m c ⟨n + 1, h⟩ p q _ 3 h3 ih) (iblk2_apply m c ⟨n + 1, h⟩ q)).trans ?_
    show Spec.upto (prod m c (rowOf ⟨n + 1, h⟩ p) (colOf ⟨n + 1, h⟩ q)) 4 + _ = _
    rw [Spec.upto_four]
    rfl

end Cert.KernelIdeal.Acc

end
-- ==== Proof.Regroup.lean ====
/-
  Regrouping rows: the matrix form of the product, over x with its first two axes merged, is `Spec.out`.

  Row 2048·a + s of the 16384-row matrix is row (a, s) of the [8, 2048, 4096] array: both sit at row-major position
  (2048·a + s)·4096 + κ. So regrouping x to 16384 rows, forming the matrix product against the sign of w with the bias as one
  row, and regrouping the result back to [8, 2048, 4096] gives at (a, s, o) the sum over κ of x (a, s, κ) · sign w (o, κ), plus b o.
-/
import proofs.«120491_j62818191671354_2_alg».proof.Proof.Spec
import Idealize.ShloMosaic.Lib.Pipeline.Value
import Idealize.ShloMosaic.Lib.ValueLayout

noncomputable section

open Idealize.ShloMosaic Idealize.ShloMosaic.ValueIdx

namespace Cert.Spec

theorem regroup (x : (⟨3, ![8, 2048, 4096]⟩ : Shape).Idx → EReal) (w : (⟨2, ![4096, 4096]⟩ : Shape).Idx → EReal)
    (b : (⟨1, ![4096]⟩ : Shape).Idx → EReal)
    (h0 : (⟨3, ![8, 2048, 4096]⟩ : Shape).ShapeCasts ⟨2, ![16384, 4096]⟩)
    (h1 : (⟨1, ![4096]⟩ : Shape).ShapeCasts ⟨2, ![1, 4096]⟩)
    (h2 : (⟨2, ![16384, 4096]⟩ : Shape).ShapeCasts ⟨3, ![8, 2048, 4096]⟩) :
    shapeCast ⟨3, ![8, 2048, 4096]⟩
        (mat (shapeCast ⟨2, ![16384, 4096]⟩ x h0) (fun j => Ideal.sign (w j)) (shapeCast ⟨2, ![1, 4096]⟩ b h1)) h2
      = out x w b := by
  funext i
  obtain ⟨a, s, o, rfl⟩ : ∃ (a : Fin 8) (s : Fin 2048) (o : Fin 4096), i = ix3 a s o := ⟨i 0, i 1, i 2, eq_ix3 i⟩
  have hr : 2048 * a.val + s.val < 16384 := by have := a.isLt; have := s.isLt; omega
  refine (shapeCast_apply _ h2 (ix3 a s o) (ix2 ⟨2048 * a.val + s.val, hr⟩ o) (by
    rw [Shape.rowMajor_val_two, Shape.rowMajor_val_three]
    show (2048 * a.val + s.val) * 4096 + o.val = (a.val * 2048 + s.val) * 4096 + o.val
    omega)).trans ?_
  show (∑ κ : Fin 4096, shapeCast ⟨2, ![16384, 4096]⟩ x h0 (ix2 ⟨2048 * a.val + s.val, hr⟩ κ) * Ideal.sign (w (ix2 o κ)))
      + shapeCast ⟨2, ![1, 4096]⟩ b h1 (ix2 (0 : Fin 1) o)
    = (∑ κ : Fin 4096, x (ix3 a s κ) * Ideal.sign (w (ix2 o κ))) + b (ix1 o)
  refine congrArg₂ (· + ·) (Finset.sum_congr rfl fun κ _ => congrArg (· * Ideal.sign (w (ix2 o κ))) ?_)
    (shapeCast_a_1a_apply b h1 0 o)
  exact shapeCast_apply x h0 _ (ix3 a s κ) (by
    rw [Shape.rowMajor_val_two, Shape.rowMajor_val_three]
    show (a.val * 2048 + s.val) * 4096 + κ.val = (2048 * a.val + s.val) * 4096 + κ.val
    omega)

end Cert.Spec

end
-- ==== Proof.KernelValue.lean ====
/-
  The output matrix after the region, and the program's result.

  Every entry (r, s) of the 16384 × 4096 output matrix lies in exactly one output block, the one with i = r / 1024 and
  j = s / 2048, and that block is written once, by the point (i, j, 3), with the whole sum plus the bias (`out_eq`). So the
  matrix ends holding `Spec.mat` of the three arrays the region reads (`final`). Those arrays are what the lines before the
  region make of the arguments — x regrouped to 16384 rows, the sign of w (its narrowing to the shorter float format is the
  identity on the extended reals), b as one row — and the line after the region regroups the matrix to [8, 2048, 4096].
-/
import proofs.«120491_j62818191671354_2_alg».proof.Proof.Accum
import proofs.«120491_j62818191671354_2_alg».proof.Proof.Regroup
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- What a point with k = 3 writes back is its block of `Spec.mat`. -/
theorem flushed_eq (c : Dev nD) (t : Fin cfg0.N) (hf : (cfg0.win 3).flush t = true) :
    (dats m 0 c).flushed 3 t = ((cfg0.win 3).blk t).view.read (Elt Ideal) (Spec.mat (A0 m c) (A1 m c) (A2 m c)) := by
  have h3 : t.val % 4 = 3 := (flush0_3 t).mp hf
  show (cfg0.win 3).cut (grid0.coords t) ((dats m 0 c).after 3 t) = _
  rw [after0_3]
  funext y
  show (outsAt0 m c t.val t.isLt).1 y = Spec.mat (A0 m c) (A1 m c) (A2 m c) (((cfg0.win 3).blk t).view.emb y)
  rw [emb3 t y]
  exact (congrArg (outsAt0 m c t.val t.isLt).1 (eq_ix2 y)).trans (out_eq m c t.val t.isLt h3 (y 0) (y 1))

/-- An entry of the output matrix is in the point's block iff each coordinate is in the block's range. -/
theorem mem_blk (t : Fin cfg0.N) (i : S16384x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v4).slice (win0_3.rect t)).set ↔ _
  rw [View.set_slice_whole, Rect.mem_set_unit]
  exact Iff.rfl

/-- Every entry (r, s) is in the block written by the point (r / 1024, s / 2048, 3). -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 128 := N_0
  obtain ⟨t, ht⟩ : ∃ t : Fin cfg0.N, t.val = 8 * ((i 0).val / 1024) + 4 * ((i 1).val / 2048) + 3 :=
    ⟨⟨8 * ((i 0).val / 1024) + 4 * ((i 1).val / 2048) + 3, by rw [hN]; omega⟩, rfl⟩
  obtain ⟨-, -, -, -, -, -, e6, e7⟩ := idx_facts t
  refine ⟨t, (flush0_3 t).mpr (by rw [ht]; omega), ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 2048 ≤ (i 1).val ∧ (i 1).val < win0_3.index t (1 : Fin 2) * 2048 + 2048
    rw [e7, ht]; omega

/-- The output matrix after the region. -/
theorem final (c : Dev nD) : (dats m 0 c).arrAt 3 cfg0.N = Spec.mat (A0 m c) (A1 m c) (A2 m c) :=
  (dats m 0 c).arrAt_eq_of_cover 3 _ (fun t hf => flushed_eq m c t hf) cover

/-- The left matrix the region reads: x with its first two axes merged. -/
theorem A0_eq (c : Dev nD) :
    A0 m c = shapeCast S16384x4096 (m ((c : Thread nD τ).loc main_arg0)) shapeCasts_S8x2048x4096_S16384x4096 := by
  show StableHlo.after hostOps0 (fun b => m (c, b)) (Proc.devRef .tc main_v0) = _
  after_results
  rfl

/-- The right matrix the region reads: the sign of w, entry by entry. -/
theorem A1_eq (c : Dev nD) : A1 m c = fun j => Ideal.sign (m ((c : Thread nD τ).loc main_arg1) j) := by
  show StableHlo.after hostOps0 (fun b => m (c, b)) (Proc.devRef .tc main_v3) = _
  after_results
  rfl

/-- The bias row the region reads: b as a matrix of one row. -/
theorem A2_eq (c : Dev nD) :
    A2 m c = shapeCast S1x4096 (m ((c : Thread nD τ).loc main_arg2)) shapeCasts_S4096_S1x4096 := by
  show StableHlo.after hostOps0 (fun b => m (c, b)) (Proc.devRef .tc main_v1) = _
  after_results
  rfl

/-- The program's result: the line after the region regroups the output matrix. -/
theorem result_eq (c : Dev nD) :
    Pipeline.afterTail₀ cfgs (dats m) 0 (V0 m) [hostOps1] c main_v5
      = shapeCast S8x2048x4096 (Spec.mat (A0 m c) (A1 m c) (A2 m c)) shapeCasts_S16384x4096_S8x2048x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = Spec.mat (A0 m c) (A1 m c) (A2 m c) :=
    (Pipeline.withArrays_arr spec0 launch0.win.arr_inj c _ _ 3).trans (final m c)
  exact congrArg (fun A => shapeCast S8x2048x4096 A shapeCasts_S16384x4096_S8x2048x4096) e

/-- In terms of the arguments: `Spec.out`. -/
theorem value_eq (c : Dev nD) :
    Pipeline.afterTail₀ cfgs (dats m) 0 (V0 m) [hostOps1] c main_v5
      = Spec.out (m ((c : Thread nD τ).loc main_arg0)) (m ((c : Thread nD τ).loc main_arg1)) (m ((c : Thread nD τ).loc main_arg2)) := by
  rw [result_eq, A0_eq, A1_eq, A2_eq]
  exact Spec.regroup _ _ _ _ _ _

/-- The run, read: the result at `Spec.out` of the arguments, the arguments unchanged. -/
theorem run : θ_run defs (onTc (τ := τ) (main (F := Ideal))) ⟨m, fun _ => 0, ρ⟩ fun r => ∀ c : Dev nD,
      r.2.mem ((c.tc : Thread nD τ).loc main_v5)
        = Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefValue.lean ====
/-
  The reference computes `Spec.out`.

  Its result at (i, s, o) is (∑ κ, x (i, s, κ) · (w (o, κ) + (sign (w (o, κ)) − w (o, κ)))) + b o: the product contracts the last
  axis of x with the second axis of the rewritten weight, and the bias is repeated over the first two axes. Where every entry
  of w is a real number the rewritten weight is the sign of w (`Spec.sign_fix`), term by term.
-/
import proofs.«120491_j62818191671354_2_alg».proof.Proof.Spec
import proofs.«120491_j62818191671354_2_alg».proof.Proof.Gen.ReferenceIdeal.Read

noncomputable section

open Idealize.ShloMosaic Idealize.ShloMosaic.ValueIdx

namespace Cert.ReferenceIdeal.RefValue

open Cert.ReferenceIdeal Cert.ReferenceIdeal.Gen Cert.ReferenceIdeal.Read

theorem ref_eq (x : (⟨S8x2048x4096, .f32⟩ : BufTy).Contents (Elt Ideal)) (w : (⟨S4096x4096, .f32⟩ : BufTy).Contents (Elt Ideal))
    (b : (⟨S4096, .f32⟩ : BufTy).Contents (Elt Ideal)) (hw : ∀ j, ∃ r : ℝ, w j = (r : EReal)) :
    val_main_v6 (F := Ideal) x w b = Spec.out x w b := by
  funext i
  obtain ⟨a, s, o, rfl⟩ : ∃ (a : Fin 8) (s : Fin 2048) (o : Fin 4096), i = ix3 a s o := ⟨i 0, i 1, i 2, eq_ix3 i⟩
  have el : ∀ k, lidx_main_v3 (ix3 a s o) k = ix3 a s k := fun k => funext fun d => Fin.ext (by
    match d with
    | ⟨0, _⟩ => rfl
    | ⟨1, _⟩ => rfl
    | ⟨2, _⟩ => rfl)
  have er : ∀ k, ridx_main_v3 (ix3 a s o) k = ix2 o k := fun k => funext fun d => Fin.ext (by
    match d with
    | ⟨0, _⟩ => rfl
    | ⟨1, _⟩ => rfl)
  have eb : idx_main_v4 (idx_main_v5 (ix3 a s o)) = ix1 o := funext fun d => Fin.ext (by
    match d with
    | ⟨0, _⟩ => rfl)
  refine (val_main_v6_apply x w b (ix3 a s o)).trans ?_
  refine (congrArg₂ (· + ·) (val_main_v3_apply x w (ix3 a s o))
    ((val_main_v5_apply b (ix3 a s o)).trans ((val_main_v4_apply b _).trans (congrArg b eb)))).trans ?_
  show _ = (∑ κ : Fin 4096, x (ix3 a s κ) * Ideal.sign (w (ix2 o κ))) + b (ix1 o)
  refine congrArg (· + b (ix1 o)) (Finset.sum_congr rfl fun k _ => ?_)
  rw [el k, er k]
  show x (ix3 a s k) * (w (ix2 o k) + (Ideal.sign (w (ix2 o k)) - w (ix2 o k))) = _
  rw [Spec.sign_fix _ (hw _)]

end Cert.ReferenceIdeal.RefValue

end
-- ==== Proof.Finite.lean ====
/-
  The precondition makes every entry of the weight a real number.

  The precondition is the conjunction of three tests "|a| < +∞ at every entry", one per argument. Reading the middle one at an
  entry w gives max w (−w) < +∞ on the extended reals, which rules out both infinities.
-/
import proofs.«120491_j62818191671354_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.Pre_finite_inputs.Finite

open Cert.Pre_finite_inputs

instance : Subsingleton S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

variable [Facts]

/-- Under the precondition every entry of the second argument is a real number. -/
theorem weight_real (x : FVec Ideal S8x2048x4096 .f32) (w : FVec Ideal S4096x4096 .f32) (b : FVec Ideal S4096 .f32)
    (h : fn (F := Ideal) x w b = fun _ => 1#1) (j : S4096x4096.Idx) : ∃ r : ℝ, w j = (r : EReal) := by
  have h0 := congrFun h ValueIdx.ix0
  dsimp only [fn] at h0
  obtain ⟨h1, -⟩ := IntOp.andi_eq_one.mp h0
  obtain ⟨-, h2⟩ := IntOp.andi_eq_one.mp h1
  exact real_of_abs_lt (w j) (Host.reduce_andi_all _ _ _ _ ValueIdx.ix0 h2 j)

end Cert.Pre_finite_inputs.Finite

end
-- ==== Proof.lean ====
/-
  A binarized linear layer: out (i, s, o) = (∑ κ, x (i, s, κ) · sign (w (o, κ))) + b o, for x : [8, 2048, 4096], w : [4096, 4096],
  b : [4096], on the extended reals.

  The kernel program takes the sign of w once, merges the first two axes of x into 16384 rows, and runs a 16 × 2 × 4 grid of
  points (i, j, k): each multiplies a 1024 × 1024 block of x by a 2048 × 1024 block of the signs along their shared axis and adds
  the product to a 1024 × 2048 accumulator that is reset at k = 0 and written out, with the bias row added, at k = 3. Summing the
  shared axis in four stretches of 1024 is the same sum (addition on the extended reals is associative and commutative, with
  neutral zero), the narrowing of float formats is the identity there, and every entry of the output lies in exactly one block,
  written once. So the kernel's result is the function above (`Acc.run`).

  The reference program writes the sign as w + (sign w − w) and contracts x against that. This is the sign exactly where w is a
  real number: at an infinite entry the difference is the opposite infinity. The precondition — every input entry finite —
  gives that for w (`Finite.weight_real`); nothing is needed of x or b. So the reference's result is the same function
  (`RefValue.ref_eq`), and the two programs end with equal results.

  Both kernel programs run to completion without a fault and leave their arguments unchanged: the generated frames. The
  reference's frame is its run with the result forgotten. The idealization rewrote nothing, so there is nothing to preserve.
-/
import proofs.«120491_j62818191671354_2_alg».proof.Defs
import proofs.«120491_j62818191671354_2_alg».proof.Proof.Gen.Kernel
import proofs.«120491_j62818191671354_2_alg».proof.Proof.Gen.Kernel.Skeleton
import proofs.«120491_j62818191671354_2_alg».proof.Proof.Gen.Kernel.Launch
import proofs.«120491_j62818191671354_2_alg».proof.Proof.Gen.Kernel.Points
import proofs.«120491_j62818191671354_2_alg».proof.Proof.Gen.Kernel.Frame
import proofs.«120491_j62818191671354_2_alg».proof.Proof.Gen.KernelIdeal
import proofs.«120491_j62818191671354_2_alg».proof.Proof.Gen.KernelIdeal.Skeleton
import proofs.«120491_j62818191671354_2_alg».proof.Proof.Gen.KernelIdeal.Launch
import proofs.«120491_j62818191671354_2_alg».proof.Proof.Gen.KernelIdeal.Points
import proofs.«120491_j62818191671354_2_alg».proof.Proof.Gen.KernelIdeal.Frame
import proofs.«120491_j62818191671354_2_alg».proof.Proof.Gen.ReferenceIdeal
import proofs.«120491_j62818191671354_2_alg».proof.Proof.Gen.ReferenceIdeal.Run
import proofs.«120491_j62818191671354_2_alg».proof.Proof.Gen.ReferenceIdeal.Read
import proofs.«120491_j62818191671354_2_alg».proof.Proof.Gen.Pre_finite_inputs
import proofs.«120491_j62818191671354_2_alg».proof.Proof.KernelValue
import proofs.«120491_j62818191671354_2_alg».proof.Proof.RefValue
import proofs.«120491_j62818191671354_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, with a finite weight, both programs end at `Spec.out` of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2]
  exact Cert.ReferenceIdeal.RefValue.ref_eq _ _ _
    (fun j => Cert.Pre_finite_inputs.Finite.weight_real _ _ _ (hpre c) j)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
